-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S1024 : Shape := ⟨1, ![1024]⟩
abbrev S1024x512 : Shape := ⟨2, ![1024, 512]⟩
abbrev S512x1024 : Shape := ⟨2, ![512, 1024]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn_part1 {F : FTy → Type} [FloatOps F] (main_arg4 : FVec F S512x1024 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  main_v23

def fn {F : FTy → Type} [FloatOps F] (main_arg0 : FVec F S131072x1024 .f32) (main_arg1 : FVec F S1024 .f32) (main_arg2 : FVec F S1024x512 .f32) (main_arg3 : FVec F S1024x512 .f32) (main_arg4 : FVec F S512x1024 .f32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_v13 main_v16
-- ==== Kernel.lean ====
abbrev S131072x1024 : Shape := ⟨2, ![131072, 1024]⟩
abbrev S1024 : Shape := ⟨1, ![1024]⟩
abbrev S1024x512 : Shape := ⟨2, ![1024, 512]⟩
abbrev S512x1024 : Shape := ⟨2, ![512, 1024]⟩
abbrev S1024x1 : Shape := ⟨2, ![1024, 1]⟩
abbrev S1024x1024 : Shape := ⟨2, ![1024, 1024]⟩
abbrev S512 : Shape := ⟨1, ![512]⟩
abbrev S512x1 : Shape := ⟨2, ![512, 1]⟩
abbrev S512x512 : Shape := ⟨2, ![512, 512]⟩

abbrev nBuf : Space → Nat
  | .hbm => 15
  | .vmem => 6
  | .smem => 0
  | _ => 0

abbrev bufTy : (tb : Table) → Fin (tcTables nBuf tb) → BufTy
  | .hbm, ⟨0, _⟩ => ⟨S131072x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S512x1024, .f32⟩
  | .hbm, ⟨5, _⟩ => ⟨S1024x1, .f32⟩
  | .hbm, ⟨6, _⟩ => ⟨S1024x512, .f32⟩
  | .hbm, ⟨7, _⟩ => ⟨S1024x512, .f32⟩
  | .hbm, ⟨8, _⟩ => ⟨S1024x1, .f32⟩
  | .hbm, ⟨9, _⟩ => ⟨S1024x512, .f32⟩
  | .hbm, ⟨10, _⟩ => ⟨S1024x512, .f32⟩
  | .hbm, ⟨11, _⟩ => ⟨S1024x1024, .f32⟩
  | .hbm, ⟨12, _⟩ => ⟨S1024x1024, .bf16⟩
  | .hbm, ⟨13, _⟩ => ⟨S512x1024, .bf16⟩
  | .hbm, ⟨14, _⟩ => ⟨S131072x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S1024_S1024x1_0 : S1024.BroadcastsInDim S1024x1 (![0] : Fin 1 → Fin S1024x1.rank)
  bcast_S1024x1_S1024x512_0_1 : S1024x1.BroadcastsInDim S1024x512 (![0, 1] : Fin 2 → Fin S1024x512.rank)
  concatenates_S1024x512_S1024x512_S1024x1024_d1 : Shape.Concatenates [S1024x512, S1024x512] S1024x1024 1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S512x1024_o0_0_S512x512 : S512x1024.Slices ![0, 0] S512x512
  slices_S512x1024_o0_512_S512x512 : S512x1024.Slices ![0, 512] S512x512
  shapeCasts_S512x1024_S512x1024 : S512x1024.ShapeCasts S512x1024
  dot_S512x1024_S1024x1024_S512x1024_1_0_0_1_n_n_wf : DotDims.WF S512x1024 S1024x1024 S512x1024 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S131072x1024.size a
  hwx0_0 : ∀ i : grid0.Coords, EltTy.bits .f32 = 32 ∨ (Rect.block (s := S131072x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S131072x1024.size a
  hwx0_3 : ∀ i : grid0.Coords, EltTy.bits .f32 = 32 ∨ (Rect.block (s := S131072x1024) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x1024 : Shape := ⟨2, ![131072, 1024]⟩
abbrev S1024 : Shape := ⟨1, ![1024]⟩
abbrev S1024x512 : Shape := ⟨2, ![1024, 512]⟩
abbrev S512x1024 : Shape := ⟨2, ![512, 1024]⟩
abbrev S_ : Shape := ⟨0, ![]⟩
abbrev S131072 : Shape := ⟨1, ![131072]⟩
abbrev S131072x1 : Shape := ⟨2, ![131072, 1]⟩
abbrev S1x1024 : Shape := ⟨2, ![1, 1024]⟩
abbrev S131072x512 : Shape := ⟨2, ![131072, 512]⟩

abbrev nBuf : Space → Nat
  | .hbm => 31
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S512x1024, .f32⟩
  | .hbm, ⟨5, _⟩ => ⟨S131072x1024, .f32⟩
  | .hbm, ⟨6, _⟩ => ⟨S_, .f32⟩
  | .hbm, ⟨7, _⟩ => ⟨S131072, .f32⟩
  | .hbm, ⟨8, _⟩ => ⟨S_, .f32⟩
  | .hbm, ⟨9, _⟩ => ⟨S131072, .f32⟩
  | .hbm, ⟨10, _⟩ => ⟨S131072, .f32⟩
  | .hbm, ⟨11, _⟩ => ⟨S131072, .f32⟩
  | .hbm, ⟨12, _⟩ => ⟨S131072x1, .f32⟩
  | .hbm, ⟨13, _⟩ => ⟨S131072x1024, .f32⟩
  | .hbm, ⟨14, _⟩ => ⟨S131072x1024, .f32⟩
  | .hbm, ⟨15, _⟩ => ⟨S1x1024, .f32⟩
  | .hbm, ⟨16, _⟩ => ⟨S131072x1024, .f32⟩
  | .hbm, ⟨17, _⟩ => ⟨S131072x1024, .f32⟩
  | .hbm, ⟨18, _⟩ => ⟨S131072x512, .f32⟩
  | .hbm, ⟨19, _⟩ => ⟨S131072x512, .f32⟩
  | .hbm, ⟨20, _⟩ => ⟨S131072x512, .f32⟩
  | .hbm, ⟨21, _⟩ => ⟨S131072x512, .f32⟩
  | .hbm, ⟨22, _⟩ => ⟨S_, .f32⟩
  | .hbm, ⟨23, _⟩ => ⟨S131072x512, .f32⟩
  | .hbm, ⟨24, _⟩ => ⟨S131072x512, .f32⟩
  | .hbm, ⟨25, _⟩ => ⟨S_, .f32⟩
  | .hbm, ⟨26, _⟩ => ⟨S131072x512, .f32⟩
  | .hbm, ⟨27, _⟩ => ⟨S131072x512, .f32⟩
  | .hbm, ⟨28, _⟩ => ⟨S131072x512, .f32⟩
  | .hbm, ⟨29, _⟩ => ⟨S131072x512, .f32⟩
  | .hbm, ⟨30, _⟩ => ⟨S131072x1024, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩

abbrev nD : Nat := 1
abbrev τ : Topo := Topo.v7x

variable {F : FTy → Type} [FloatOps F]

class Facts₀ : Prop where
  reducesTo_S131072x1024_S131072_d1 : S131072x1024.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x1024_0_1 : S131072x1.BroadcastsInDim S131072x1024 (![0, 1] : Fin 2 → Fin S131072x1024.rank)
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  bcast_S_S131072x512 : S_.BroadcastsInDim S131072x512 (![] : Fin 0 → Fin S131072x512.rank)
  dot_S131072x1024_S1024x512_S131072x512_1_0_0_1_n_n_wf : DotDims.WF S131072x1024 S1024x512 S131072x512 [1] [0] [0] [1] [] []
  dot_S131072x512_S512x1024_S131072x1024_1_0_0_1_n_n_wf : DotDims.WF S131072x512 S512x1024 S131072x1024 [1] [0] [0] [1] [] []

variable [Facts₀]

def dot_S131072x1024_S1024x512_S131072x512_1_0_0_1_n_n : DotDims S131072x1024 S1024x512 S131072x512 where
  lhsContracting := [1]
  rhsContracting := [0]
  lhsNonContracting := [0]
  rhsNonContracting := [1]
  lhsBatch := []
  rhsBatch := []
  wf := dot_S131072x1024_S1024x512_S131072x512_1_0_0_1_n_n_wf
def dot_S131072x512_S512x1024_S131072x1024_1_0_0_1_n_n : DotDims S131072x512 S512x1024 S131072x1024 where
  lhsContracting := [1]
  rhsContracting := [0]
  lhsNonContracting := [0]
  rhsNonContracting := [1]
  lhsBatch := []
  rhsBatch := []
  wf := dot_S131072x512_S512x1024_S131072x1024_1_0_0_1_n_n_wf

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«144798_j79345225826315_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«144798_j79345225826315_2_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.LibRmsGatedFfn.lean ====
/-
  A gated feed-forward layer behind a root-mean-square normalisation, on the extended reals, as a function of whole
  arrays.

  Row i of X is scaled by s(i) = (Σ_c X(i,c)² / d)^(-1/2), column c by w(c); the scaled rows are multiplied by a gate
  matrix W₁ and an up matrix W₂; the two products are joined entry by entry as g · σ(g) · u, σ the logistic function;
  and the result is multiplied by a down matrix W₃. Every entry of the layer's row i depends on row i of X alone.
  So a block of rows of X, pushed through the same steps, gives the same rows of the layer — also when the column
  weights w have been multiplied into the rows of W₁ and W₂ beforehand and the two weighted matrices laid side by
  side in one matrix B, because a product of three extended reals may be bracketed either way. No sum is
  rearranged and no factor is cancelled, so nothing is asked to be finite. Nothing here mentions a program.
-/
import Idealize.ShloMosaic.PureOps.Ideal
import Idealize.ShloMosaic.Lib.ValueIdx
import proofs.«144798_j79345225826315_2_alg».proof.Proof.LibMatProd
import proofs.«144798_j79345225826315_2_alg».proof.Proof.LibRowBlocks

open scoped BigOperators

noncomputable section

namespace Cert.Lib.RmsGatedFfn

open Idealize.ShloMosaic Idealize.ShloMosaic.ValueIdx Cert.Lib.MatProd

variable {m k n o : Nat}

/-- The scale of row p: the reciprocal square root of the row's sum of squares divided by d. -/
def rowScale (d : EReal) (X : (⟨2, ![m, k]⟩ : Shape).Idx → EReal) (p : Fin m) : EReal :=
  Ideal.rsqrt (Ideal.div (∑ c : Fin k, X (ix2 p c) * X (ix2 p c)) d)

/-- Every row multiplied by its own scale. -/
def scaleRows (d : EReal) (X : (⟨2, ![m, k]⟩ : Shape).Idx → EReal) : (⟨2, ![m, k]⟩ : Shape).Idx → EReal :=
  fun i => X i * rowScale d X (i 0)

/-- The scaled rows with column c multiplied by w(c). -/
def normRows (d : EReal) (X : (⟨2, ![m, k]⟩ : Shape).Idx → EReal) (w : (⟨1, ![k]⟩ : Shape).Idx → EReal) :
    (⟨2, ![m, k]⟩ : Shape).Idx → EReal :=
  fun i => scaleRows d X i * w (ix1 (i 1))

/-- The gate: g · σ(g) · u entry by entry, σ the logistic function. -/
def gate (g u : (⟨2, ![m, n]⟩ : Shape).Idx → EReal) : (⟨2, ![m, n]⟩ : Shape).Idx → EReal :=
  fun i => (g i * Ideal.logistic (g i)) * u i

/-- The layer: normalise, multiply by the gate and the up matrix, join, multiply by the down matrix. -/
def ffn (d : EReal) (X : (⟨2, ![m, k]⟩ : Shape).Idx → EReal) (w : (⟨1, ![k]⟩ : Shape).Idx → EReal)
    (W₁ W₂ : (⟨2, ![k, n]⟩ : Shape).Idx → EReal) (W₃ : (⟨2, ![n, o]⟩ : Shape).Idx → EReal) :
    (⟨2, ![m, o]⟩ : Shape).Idx → EReal :=
  matProd (gate (matProd (normRows d X w) W₁) (matProd (normRows d X w) W₂)) W₃

/-- The same steps on a block A of rows, with the column weights already inside one matrix B that holds the weighted
    gate matrix in the columns `cl q` and the weighted up matrix in the columns `cr q`. -/
def ffnFolded {n2 : Nat} (d : EReal) (A : (⟨2, ![m, k]⟩ : Shape).Idx → EReal) (B : (⟨2, ![k, n2]⟩ : Shape).Idx → EReal)
    (cl cr : Fin n → Fin n2) (W₃ : (⟨2, ![n, o]⟩ : Shape).Idx → EReal) : (⟨2, ![m, o]⟩ : Shape).Idx → EReal :=
  matProd (gate
    (fun j : (⟨2, ![m, n]⟩ : Shape).Idx =>
      matProd (scaleRows d A) B (ix2 (⟨(j 0).val, idx2_lt0 j⟩ : Fin m) (cl (⟨(j 1).val, idx2_lt1 j⟩ : Fin n))))
    (fun j : (⟨2, ![m, n]⟩ : Shape).Idx =>
      matProd (scaleRows d A) B (ix2 (⟨(j 0).val, idx2_lt0 j⟩ : Fin m) (cr (⟨(j 1).val, idx2_lt1 j⟩ : Fin n))))) W₃

/-- A row's scale depends on that row alone. -/
theorem rowScale_congr {m' : Nat} (d : EReal) (X : (⟨2, ![m, k]⟩ : Shape).Idx → EReal)
    (A : (⟨2, ![m', k]⟩ : Shape).Idx → EReal) (y : Fin m') (r : Fin m)
    (hA : ∀ c : Fin k, A (ix2 y c) = X (ix2 r c)) : rowScale d A y = rowScale d X r := by
  unfold rowScale
  exact congrArg (fun s => Ideal.rsqrt (Ideal.div s d)) (Finset.sum_congr rfl fun c _ => by rw [hA c])

/-- One entry of the scaled block times B, against the same entry of the normalised rows times the unweighted
    matrix: term by term (a · s) · (w · v) = ((a · s) · w) · v. -/
theorem folded_entry {m' n2 : Nat} (d : EReal) (X : (⟨2, ![m, k]⟩ : Shape).Idx → EReal)
    (w : (⟨1, ![k]⟩ : Shape).Idx → EReal) (W : (⟨2, ![k, n]⟩ : Shape).Idx → EReal)
    (A : (⟨2, ![m', k]⟩ : Shape).Idx → EReal) (B : (⟨2, ![k, n2]⟩ : Shape).Idx → EReal)
    (y : Fin m') (r : Fin m) (q : Fin n) (q' : Fin n2)
    (hA : ∀ c : Fin k, A (ix2 y c) = X (ix2 r c))
    (hB : ∀ c : Fin k, B (ix2 c q') = w (ix1 c) * W (ix2 c q)) :
    matProd (scaleRows d A) B (ix2 y q') = matProd (normRows d X w) W (ix2 r q) := by
  rw [matProd_apply, matProd_apply]
  refine Finset.sum_congr rfl fun c _ => ?_
  show (A (ix2 y c) * rowScale d A y) * B (ix2 c q') = ((X (ix2 r c) * rowScale d X r) * w (ix1 c)) * W (ix2 c q)
  rw [hA c, rowScale_congr d X A y r hA, hB c, mul_assoc (X (ix2 r c) * rowScale d X r)]

/-- One entry of the joined block: row p of the block A being row r of X, the folded gate at (p, q) is the layer's
    gate at (r, q). -/
theorem gate_folded_entry {m' n2 : Nat} (d : EReal) (X : (⟨2, ![m, k]⟩ : Shape).Idx → EReal)
    (w : (⟨1, ![k]⟩ : Shape).Idx → EReal) (W₁ W₂ : (⟨2, ![k, n]⟩ : Shape).Idx → EReal)
    (A : (⟨2, ![m', k]⟩ : Shape).Idx → EReal) (B : (⟨2, ![k, n2]⟩ : Shape).Idx → EReal) (cl cr : Fin n → Fin n2)
    (hBl : ∀ (c : Fin k) (q : Fin n), B (ix2 c (cl q)) = w (ix1 c) * W₁ (ix2 c q))
    (hBr : ∀ (c : Fin k) (q : Fin n), B (ix2 c (cr q)) = w (ix1 c) * W₂ (ix2 c q))
    (p : Fin m') (r : Fin m) (q : Fin n) (hA : ∀ c : Fin k, A (ix2 p c) = X (ix2 r c)) :
    gate
      (fun j : (⟨2, ![m', n]⟩ : Shape).Idx =>
        matProd (scaleRows d A) B (ix2 (⟨(j 0).val, idx2_lt0 j⟩ : Fin m') (cl (⟨(j 1).val, idx2_lt1 j⟩ : Fin n))))
      (fun j : (⟨2, ![m', n]⟩ : Shape).Idx =>
        matProd (scaleRows d A) B (ix2 (⟨(j 0).val, idx2_lt0 j⟩ : Fin m') (cr (⟨(j 1).val, idx2_lt1 j⟩ : Fin n))))
      (ix2 p q)
    = gate (matProd (normRows d X w) W₁) (matProd (normRows d X w) W₂) (ix2 r q) := by
  show (matProd (scaleRows d A) B (ix2 p (cl q)) * Ideal.logistic (matProd (scaleRows d A) B (ix2 p (cl q))))
        * matProd (scaleRows d A) B (ix2 p (cr q))
      = (matProd (normRows d X w) W₁ (ix2 r q) * Ideal.logistic (matProd (normRows d X w) W₁ (ix2 r q)))
        * matProd (normRows d X w) W₂ (ix2 r q)
  rw [folded_entry d X w W₁ A B p r q (cl q) hA (fun c => hBl c q),
    folded_entry d X w W₂ A B p r q (cr q) hA (fun c => hBr c q)]

/-- A block of rows through the folded steps is the same rows of the layer: if row (y 0) of the block A is row (i 0)
    of X, the columns `cl q` of B are w · W₁'s and the columns `cr q` are w · W₂'s, and y and i name the same column,
    then the folded block at y is the layer at i. -/
theorem ffnFolded_rows {m' n2 : Nat} (d : EReal) (X : (⟨2, ![m, k]⟩ : Shape).Idx → EReal)
    (w : (⟨1, ![k]⟩ : Shape).Idx → EReal) (W₁ W₂ : (⟨2, ![k, n]⟩ : Shape).Idx → EReal)
    (W₃ : (⟨2, ![n, o]⟩ : Shape).Idx → EReal)
    (A : (⟨2, ![m', k]⟩ : Shape).Idx → EReal) (B : (⟨2, ![k, n2]⟩ : Shape).Idx → EReal) (cl cr : Fin n → Fin n2)
    (hBl : ∀ (c : Fin k) (q : Fin n), B (ix2 c (cl q)) = w (ix1 c) * W₁ (ix2 c q))
    (hBr : ∀ (c : Fin k) (q : Fin n), B (ix2 c (cr q)) = w (ix1 c) * W₂ (ix2 c q))
    (y : (⟨2, ![m', o]⟩ : Shape).Idx) (i : (⟨2, ![m, o]⟩ : Shape).Idx)
    (hA : ∀ c : Fin k, A (ix2 (⟨(y 0).val, idx2_lt0 y⟩ : Fin m') c) = X (ix2 (⟨(i 0).val, idx2_lt0 i⟩ : Fin m) c))
    (hcol : (y 1).val = (i 1).val) :
    ffnFolded d A B cl cr W₃ y = ffn d X w W₁ W₂ W₃ i := by
  unfold ffnFolded ffn
  exact Cert.Lib.RowBlocks.matProd_rows _ _ W₃ y i
    (fun q => gate_folded_entry d X w W₁ W₂ A B cl cr hBl hBr _ _ q hA) hcol

end Cert.Lib.RmsGatedFfn

end
-- ==== Proof.BlockBody.lean ====
/-
  What the kernel body computes on one block of 512 rows, on the extended reals.

  The body reads a block A of 512 rows of x, the whole 1024×1024 matrix B and the whole 512×1024 matrix C. It scales
  each row of A by the reciprocal square root of (the row's sum of squares / 1024), multiplies the scaled block by B,
  takes the left half of the product's columns as the gate g and the right half as the up values u, joins them as
  g · σ(g) · u, and multiplies by C. Changes of float format and re-shapings to the same shape do nothing on the
  extended reals, and a product accumulated into zeros is the matrix product. So the stored block is the folded layer
  `ffnFolded` of A, B and C, with the gate in columns q and the up values in columns 512 + q of B.
-/
import proofs.«144798_j79345225826315_2_alg».proof.Proof.Gen.KernelIdeal.Skeleton
import Idealize.ShloMosaic.Lib.Pipeline.Value
import Idealize.ShloMosaic.Lib.ValueIdx
import proofs.«144798_j79345225826315_2_alg».proof.Proof.LibMatProd
import proofs.«144798_j79345225826315_2_alg».proof.Proof.LibRowReductions
import proofs.«144798_j79345225826315_2_alg».proof.Proof.LibRmsGatedFfn

open scoped BigOperators

noncomputable section

namespace Cert.KernelIdeal.Block

open Cert.KernelIdeal Cert.KernelIdeal.Gen Idealize.ShloMosaic Idealize.ShloMosaic.ValueIdx
open Cert.Lib.MatProd Cert.Lib.RmsGatedFfn Cert.Lib.RowReductions

/-- The divisor under the root: the value of the single-precision word 44800000. -/
abbrev divisor : EReal := Ideal.ofBits .f32 0x44800000#32

/-- Column q of the gate half of B. -/
def colL (q : Fin 512) : Fin 1024 := ⟨q.val, by have := q.isLt; omega⟩

/-- Column q of the up half of B: 512 further right. -/
def colR (q : Fin 512) : Fin 1024 := ⟨512 + q.val, by have := q.isLt; omega⟩

/-- The block times its per-row scales: the row sums of the squares, viewed as a column, divided by 1024, under the
    reciprocal square root, spread over the columns and multiplied in. -/
theorem scaled_eq (x0 : FVec Ideal S512x1024 .f32) (h1 : S512x1024.Reduces [1] S512) (hφ : FKind.Formats .f32)
    (hacc : (0x00000000#32 : BitVec FTy.f32.bits) = FKind.add.neutral .f32 hφ) (h2 : S512.ShapeCasts S512x1)
    (h3 : S512x1.Broadcasts S512x1024) :
    mulf x0 (broadcastTo S512x1024
        (rsqrt (divf (shapeCast S512x1 (multiReduction .add [1] S512 (mulf x0 x0) 0x00000000#32 h1 hφ hacc) h2)
          (broadcast S512x1 (Scalar.ofBits .f32 0x44800000#32 : Ideal .f32)))) h3)
      = scaleRows divisor x0 := by
  funext i
  obtain ⟨p, q, rfl⟩ : ∃ (p : Fin 512) (q : Fin 1024), i = ix2 p q := ⟨i 0, i 1, eq_ix2 i⟩
  show x0 (ix2 p q) * _ = x0 (ix2 p q) * rowScale divisor x0 p
  refine congrArg (x0 (ix2 p q) * ·) ?_
  refine (broadcast_col_apply _ h3 p q).trans ?_
  show Ideal.rsqrt (Ideal.div (shapeCast S512x1 (multiReduction .add [1] S512 (mulf x0 x0) 0x00000000#32 h1 hφ hacc) h2
    (ix2 p 0)) divisor) = Ideal.rsqrt (Ideal.div (∑ c : Fin 1024, x0 (ix2 p c) * x0 (ix2 p c)) divisor)
  refine congrArg (fun s => Ideal.rsqrt (Ideal.div s divisor)) ?_
  refine (shapeCast_col_apply _ h2 p).trans ?_
  exact rowsum_apply (mulf x0 x0) 0x00000000#32 h1 hφ hacc p

/-- The first product: the scaled block, rounded to the narrower format, times B. -/
theorem first_product (x0 : FVec Ideal S512x1024 .f32) (x1 : FVec Ideal S1024x1024 .bf16)
    (h1 : S512x1024.Reduces [1] S512) (hφ : FKind.Formats .f32)
    (hacc : (0x00000000#32 : BitVec FTy.f32.bits) = FKind.add.neutral .f32 hφ) (h2 : S512.ShapeCasts S512x1)
    (h3 : S512x1.Broadcasts S512x1024) (hb : FTy.bits .bf16 < FTy.bits .f32) (h4 : S1024x1024.ShapeCasts S1024x1024) :
    matmul dot_S512x1024_S1024x1024_S512x1024_1_0_0_1_n_n none
        (truncf .bf16 (mulf x0 (broadcastTo S512x1024
          (rsqrt (divf (shapeCast S512x1 (multiReduction .add [1] S512 (mulf x0 x0) 0x00000000#32 h1 hφ hacc) h2)
            (broadcast S512x1 (Scalar.ofBits .f32 0x44800000#32 : Ideal .f32)))) h3)) hb)
        (shapeCast S1024x1024 x1 h4) (constant S512x1024 .f32 0x00000000#32)
      = matProd (scaleRows divisor x0) x1 := by
  refine (matmul_zero_eq_matProd _ rfl rfl rfl rfl rfl rfl none _ _).trans ?_
  rw [shapeCast_self x1]
  exact congrArg (fun a : S512x1024.Idx → EReal => matProd a x1) (scaled_eq x0 h1 hφ hacc h2 h3)

/-- The left half of the columns of a 512×1024 block. -/
theorem slice_left (r : S512x1024.Idx → EReal) (h : S512x1024.Slices ![0, 0] S512x512) (p q : Fin 512) :
    extractStridedSlice S512x512 ![0, 0] r h (ix2 p q) = r (ix2 p (colL q)) :=
  extractStridedSlice_apply _ r h _ _ fun a => by
    match a with
    | ⟨0, _⟩ => show p.val = 0 + p.val; omega
    | ⟨1, _⟩ => show q.val = 0 + q.val; omega

/-- The right half of the columns of a 512×1024 block. -/
theorem slice_right (r : S512x1024.Idx → EReal) (h : S512x1024.Slices ![0, 512] S512x512) (p q : Fin 512) :
    extractStridedSlice S512x512 ![0, 512] r h (ix2 p q) = r (ix2 p (colR q)) :=
  extractStridedSlice_apply _ r h _ _ fun a => by
    match a with
    | ⟨0, _⟩ => show p.val = 0 + p.val; omega
    | ⟨1, _⟩ => show 512 + q.val = 512 + q.val; rfl

/-- The two halves joined: g · σ(g) · u, rounded to the narrower format, is the gate of the two halves. -/
theorem joined_eq (r : FVec Ideal S512x1024 .f32) (R : S512x1024.Idx → EReal) (hR : r = R)
    (hl : S512x1024.Slices ![0, 0] S512x512) (hr : S512x1024.Slices ![0, 512] S512x512)
    (hb : FTy.bits .bf16 < FTy.bits .f32) :
    truncf .bf16 (mulf (mulf (extractStridedSlice S512x512 ![0, 0] r hl) (logistic (extractStridedSlice S512x512 ![0, 0] r hl)))
        (extractStridedSlice S512x512 ![0, 512] r hr)) hb
      = gate
          (fun j : S512x512.Idx => R (ix2 (⟨(j 0).val, idx2_lt0 j⟩ : Fin 512) (colL (⟨(j 1).val, idx2_lt1 j⟩ : Fin 512))))
          (fun j : S512x512.Idx => R (ix2 (⟨(j 0).val, idx2_lt0 j⟩ : Fin 512) (colR (⟨(j 1).val, idx2_lt1 j⟩ : Fin 512)))) := by
  subst hR
  funext j
  obtain ⟨p, q, rfl⟩ : ∃ (p : Fin 512) (q : Fin 512), j = ix2 p q := ⟨j 0, j 1, eq_ix2 j⟩
  show (extractStridedSlice S512x512 ![0, 0] r hl (ix2 p q) * Ideal.logistic (extractStridedSlice S512x512 ![0, 0] r hl (ix2 p q)))
      * extractStridedSlice S512x512 ![0, 512] r hr (ix2 p q)
    = (r (ix2 p (colL q)) * Ideal.logistic (r (ix2 p (colL q)))) * r (ix2 p (colR q))
  rw [slice_left r hl p q, slice_right r hr p q]

/-- THE BODY'S STORED BLOCK is the folded layer of the three blocks it loads. -/
theorem pay_eq (x0 : FVec Ideal S512x1024 .f32) (x1 : FVec Ideal S1024x1024 .bf16) (x2 : FVec Ideal S512x1024 .bf16) :
    k0_pay1 (F := Ideal) x0 x1 x2 = ffnFolded divisor x0 x1 colL colR x2 := by
  unfold k0_pay1
  dsimp only
  refine (matmul_zero_eq_matProd _ rfl rfl rfl rfl rfl rfl none _ _).trans ?_
  rw [shapeCast_self x2]
  unfold ffnFolded
  exact congrArg (fun a : S512x512.Idx → EReal => matProd a x2)
    (joined_eq _ (matProd (scaleRows divisor x0) x1) (first_product x0 x1 _ _ _ _ _ _ _) _ _ _)

end Cert.KernelIdeal.Block

end
-- ==== Proof.FoundWeights.lean ====
/-
  The two weight matrices the region finds, on the extended reals.

  Before the region the program spreads w0 down the columns of a 1024×512 array, multiplies it entry by entry into
  w1 and into w2, lays the two products side by side in one 1024×1024 array and rounds it to the narrower format;
  and it rounds w3. Rounding does nothing on the extended reals. So the first matrix holds w0(c) · w1(c, q) in column
  q and w0(c) · w2(c, q) in column 512 + q, and the second is w3.
-/
import proofs.«144798_j79345225826315_2_alg».proof.Proof.Gen.KernelIdeal.Frame
import Idealize.ShloMosaic.Lib.Pipeline.Value
import Idealize.ShloMosaic.Lib.ValueIdx
import Idealize.ShloMosaic.Lib.StableHlo.Run
import proofs.«144798_j79345225826315_2_alg».proof.Proof.LibRowReductions

noncomputable section

namespace Cert.KernelIdeal.Weights

open Cert.KernelIdeal Cert.KernelIdeal.Gen Idealize.ShloMosaic Idealize.ShloMosaic.TcCoe Idealize.SL.Sem
open Idealize.ShloMosaic.ValueIdx Cert.Lib.RowReductions

/-- The weighted pair side by side, read in the left half: column q' = q holds w(c) · W₁(c, q). -/
theorem weighted_left (w : S1024.Idx → EReal) (W₁ W₂ : S1024x512.Idx → EReal)
    (h1 : S1024.BroadcastsInDim S1024x1 (![0] : Fin 1 → Fin S1024x1.rank))
    (h2 : S1024x1.BroadcastsInDim S1024x512 (![0, 1] : Fin 2 → Fin S1024x512.rank))
    (hc : Shape.Concatenates [S1024x512, S1024x512] S1024x1024 1) (hb : FTy.bits .bf16 < FTy.bits .f32)
    (c : Fin 1024) (q : Fin 512) (q' : Fin 1024) (hq : q'.val = q.val) :
    (truncf .bf16 (concatenate S1024x1024 1
        [⟨S1024x512, mulf (F := Ideal) (φ := .f32) (broadcastInDim S1024x512 ![0, 1] h2 (broadcastInDim S1024x1 ![0] h1 w)) W₁⟩,
         ⟨S1024x512, mulf (F := Ideal) (φ := .f32) (broadcastInDim S1024x512 ![0, 1] h2 (broadcastInDim S1024x1 ![0] h1 w)) W₂⟩] hc) hb
      : FVec Ideal S1024x1024 .bf16) (ix2 c q') = w (ix1 c) * W₁ (ix2 c q) := by
  refine (concatenate_pair_apply_left (1 : Fin S1024x1024.rank) _ _ hc (ix2 c q') rfl (ix2 c q) (fun b => by
    match b with
    | ⟨0, _⟩ => rfl
    | ⟨1, _⟩ => exact hq.symm)).trans ?_
  show broadcastInDim S1024x512 ![0, 1] h2 (broadcastInDim S1024x1 ![0] h1 w) (ix2 c q) * W₁ (ix2 c q) = _
  exact congrArg (· * W₁ (ix2 c q)) ((bcastInDim_cols_apply _ h2 c q).trans (bcastInDim_col_apply w h1 c))

/-- The weighted pair side by side, read in the right half: column q' = 512 + q holds w(c) · W₂(c, q). -/
theorem weighted_right (w : S1024.Idx → EReal) (W₁ W₂ : S1024x512.Idx → EReal)
    (h1 : S1024.BroadcastsInDim S1024x1 (![0] : Fin 1 → Fin S1024x1.rank))
    (h2 : S1024x1.BroadcastsInDim S1024x512 (![0, 1] : Fin 2 → Fin S1024x512.rank))
    (hc : Shape.Concatenates [S1024x512, S1024x512] S1024x1024 1) (hb : FTy.bits .bf16 < FTy.bits .f32)
    (c : Fin 1024) (q : Fin 512) (q' : Fin 1024) (hq : q'.val = 512 + q.val) :
    (truncf .bf16 (concatenate S1024x1024 1
        [⟨S1024x512, mulf (F := Ideal) (φ := .f32) (broadcastInDim S1024x512 ![0, 1] h2 (broadcastInDim S1024x1 ![0] h1 w)) W₁⟩,
         ⟨S1024x512, mulf (F := Ideal) (φ := .f32) (broadcastInDim S1024x512 ![0, 1] h2 (broadcastInDim S1024x1 ![0] h1 w)) W₂⟩] hc) hb
      : FVec Ideal S1024x1024 .bf16) (ix2 c q') = w (ix1 c) * W₂ (ix2 c q) := by
  refine (concatenate_pair_apply_right (1 : Fin S1024x1024.rank) _ _ hc (ix2 c q') rfl rfl (ix2 c q) (fun b hne => by
    match b with
    | ⟨0, _⟩ => rfl
    | ⟨1, _⟩ => exact absurd rfl hne) (by show q.val + 512 = q'.val; omega)).trans ?_
  show broadcastInDim S1024x512 ![0, 1] h2 (broadcastInDim S1024x1 ![0] h1 w) (ix2 c q) * W₂ (ix2 c q) = _
  exact congrArg (· * W₂ (ix2 c q)) ((bcastInDim_cols_apply _ h2 c q).trans (bcastInDim_col_apply w h1 c))

variable (m : (ℓ : Loc nD τ sig) → Buf (Elt Ideal) ℓ)

/-- The launch contents of the five argument arrays on core c, as arrays of extended reals. -/
abbrev argX (c : Dev nD) : S131072x1024.Idx → EReal := m ((c : Thread nD τ).loc main_arg0)
abbrev argW0 (c : Dev nD) : S1024.Idx → EReal := m ((c : Thread nD τ).loc main_arg1)
abbrev argW1 (c : Dev nD) : S1024x512.Idx → EReal := m ((c : Thread nD τ).loc main_arg2)
abbrev argW2 (c : Dev nD) : S1024x512.Idx → EReal := m ((c : Thread nD τ).loc main_arg3)
abbrev argW3 (c : Dev nD) : S512x1024.Idx → EReal := m ((c : Thread nD τ).loc main_arg4)

/-- The 1024×1024 matrix the region finds: the weighted pair side by side, rounded. -/
theorem found_pair (c : Dev nD) :
    (V m c main_v7 : S1024x1024.Idx → EReal)
      = truncf .bf16 (concatenate S1024x1024 1
          [⟨S1024x512, mulf (F := Ideal) (φ := .f32) (broadcastInDim S1024x512 ![0, 1] bcast_S1024x1_S1024x512_0_1
              (broadcastInDim S1024x1 ![0] bcast_S1024_S1024x1_0 (argW0 m c))) (argW1 m c)⟩,
           ⟨S1024x512, mulf (F := Ideal) (φ := .f32) (broadcastInDim S1024x512 ![0, 1] bcast_S1024x1_S1024x512_0_1
              (broadcastInDim S1024x1 ![0] bcast_S1024_S1024x1_0 (argW0 m c))) (argW2 m c)⟩]
          concatenates_S1024x512_S1024x512_S1024x1024_d1) bitsLt_bf16_f32 := by
  dsimp only [Gen.V, Gen.hostOps0]
  after_results <;> rfl

/-- The 512×1024 matrix the region finds: w3, rounded. -/
theorem found_down (c : Dev nD) : (V m c main_v8 : S512x1024.Idx → EReal) = argW3 m c := by
  dsimp only [Gen.V, Gen.hostOps0]
  after_results <;> rfl

/-- Column q' = q of the first matrix the region finds holds w0(e) · w1(e, q). -/
theorem found_pair_left (c : Dev nD) (e : Fin 1024) (q : Fin 512) (q' : Fin 1024) (hq : q'.val = q.val) :
    (V m c main_v7 : S1024x1024.Idx → EReal) (ix2 e q') = argW0 m c (ix1 e) * argW1 m c (ix2 e q) := by
  rw [found_pair]
  exact weighted_left _ _ _ _ _ _ _ e q q' hq

/-- Column q' = 512 + q of the first matrix the region finds holds w0(e) · w2(e, q). -/
theorem found_pair_right (c : Dev nD) (e : Fin 1024) (q : Fin 512) (q' : Fin 1024) (hq : q'.val = 512 + q.val) :
    (V m c main_v7 : S1024x1024.Idx → EReal) (ix2 e q') = argW0 m c (ix1 e) * argW2 m c (ix2 e q) := by
  rw [found_pair]
  exact weighted_right _ _ _ _ _ _ _ e q q' hq

end Cert.KernelIdeal.Weights

end
-- ==== Proof.WholeArray.lean ====
/-
  From blocks to the whole result array.

  Grid point t loads rows 512·t … 512·t + 511 of x, the whole weighted pair and the whole down matrix, and writes
  back rows 512·t … 512·t + 511 of the result. The stored block is the folded layer of the three loaded blocks; every
  entry of the layer's row i depends on row i of x alone; so what point t writes back is exactly the rows
  512·t … 512·t + 511 of the layer of the five argument arrays. The 256 blocks cover the array: row r lies in the
  block of point r / 512. Hence after the run the result array holds the layer.
-/
import proofs.«144798_j79345225826315_2_alg».proof.Proof.Gen.KernelIdeal.Value
import proofs.«144798_j79345225826315_2_alg».proof.Proof.BlockBody
import proofs.«144798_j79345225826315_2_alg».proof.Proof.FoundWeights
import proofs.«144798_j79345225826315_2_alg».proof.Proof.LibRmsGatedFfn
import proofs.«144798_j79345225826315_2_alg».proof.Proof.LibRowBlocks

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Lib.RmsGatedFfn Cert.KernelIdeal.Block Cert.KernelIdeal.Weights

variable (m : (ℓ : Loc nD τ sig) → Buf (Elt Ideal) ℓ) (ρ : Dev nD → PrngReg)

/-- The layer of the five argument arrays as launched on core c. -/
def layer (c : Dev nD) : S131072x1024.Idx → EReal :=
  ffn divisor (argX m c) (argW0 m c) (argW1 m c) (argW2 m c) (argW3 m c)

/-- The printed index maps, decided over the 256 grid points: the input rows move with the output rows, which sit at
    the point's position; every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One point's block against the layer, with the three loaded blocks as variables: rows of A are rows of X, the
    columns of B are the weighted columns of W₁ and W₂, C is W₃. -/
theorem point_rows (X : S131072x1024.Idx → EReal) (w : S1024.Idx → EReal) (W₁ W₂ : S1024x512.Idx → EReal)
    (W₃ : S512x1024.Idx → EReal) (A : S512x1024.Idx → EReal) (B : S1024x1024.Idx → EReal) (C : S512x1024.Idx → EReal)
    (y : S512x1024.Idx) (i : S131072x1024.Idx)
    (hA : ∀ e : Fin 1024, A (ix2 (⟨(y 0).val, idx2_lt0 y⟩ : Fin 512) e) = X (ix2 (⟨(i 0).val, idx2_lt0 i⟩ : Fin 131072) e))
    (hBl : ∀ (e : Fin 1024) (q : Fin 512), B (ix2 e (colL q)) = w (ix1 e) * W₁ (ix2 e q))
    (hBr : ∀ (e : Fin 1024) (q : Fin 512), B (ix2 e (colR q)) = w (ix1 e) * W₂ (ix2 e q))
    (hC : C = W₃) (hcol : (y 1).val = (i 1).val) :
    ffnFolded divisor A B colL colR C y = ffn divisor X w W₁ W₂ W₃ i := by
  subst hC
  exact ffnFolded_rows divisor X w W₁ W₂ C A B colL colR hBl hBr y i hA hcol

/-- WHAT POINT t WRITES BACK is block t of the layer of the argument arrays. -/
theorem flushed_eq (c : Dev nD) (t : Fin cfg0.N) :
    (dats m 0 c).flushed 3 t = ((cfg0.win 3).blk t).view.read (Elt Ideal) (layer m c) := by
  rw [Value.flushed3]
  unfold out0_3
  rw [View.canon_unit_zero Cert.Lib.RowBlocks.zero_offset2]
  simp only [View.ld_unit_zero (S := S512x1024) Cert.Lib.RowBlocks.zero_offset2,
    View.ld_unit_zero (S := S1024x1024) Cert.Lib.RowBlocks.zero_offset2]
  rw [pay_eq]
  obtain ⟨e00, e01, e10, e11, e20, e21, e30, e31⟩ := idx_facts t
  funext y
  show ffnFolded divisor (iblk m c 0 t) (iblk m c 1 t) colL colR (iblk m c 2 t) y
    = ffn divisor (argX m c) (argW0 m c) (argW1 m c) (argW2 m c) (argW3 m c) (((cfg0.win 3).blk t).view.emb y)
  refine point_rows (argX m c) (argW0 m c) (argW1 m c) (argW2 m c) (argW3 m c) (iblk m c 0 t) (iblk m c 1 t)
    (iblk m c 2 t) y (((cfg0.win 3).blk t).view.emb y) (fun e => ?_) (fun e q => ?_) (fun e q => ?_) ?_ ?_
  · -- the rows of x the point loads
    show V m c main_arg0 (((cfg0.win 0).blk t).view.emb (ix2 (⟨(y 0).val, idx2_lt0 y⟩ : Fin 512) e)) = _
    rw [V_main_arg0]
    refine congrArg (argX m c) (funext fun a => Fin.ext ?_)
    match a with
    | ⟨0, _⟩ =>
      show win0_0.index t (0 : Fin 2) * 512 + 1 * (y 0).val = win0_3.index t (0 : Fin 2) * 512 + 1 * (y 0).val
      rw [e00, e30]
    | ⟨1, _⟩ =>
      show win0_0.index t (1 : Fin 2) * 1024 + 1 * e.val = e.val
      rw [e01]; omega
  · -- the gate half of the weighted pair
    show V m c main_v7 (((cfg0.win 1).blk t).view.emb (ix2 e (colL q))) = _
    have hpos : ((cfg0.win 1).blk t).view.emb (ix2 e (colL q)) = ix2 e (colL q) := funext fun a => Fin.ext (by
      match a with
      | ⟨0, _⟩ => show win0_1.index t (0 : Fin 2) * 1024 + 1 * e.val = e.val; rw [e10]; omega
      | ⟨1, _⟩ => show win0_1.index t (1 : Fin 2) * 1024 + 1 * (colL q).val = (colL q).val; rw [e11]; omega)
    rw [hpos]
    exact found_pair_left m c e q (colL q) rfl
  · -- the up half of the weighted pair
    show V m c main_v7 (((cfg0.win 1).blk t).view.emb (ix2 e (colR q))) = _
    have hpos : ((cfg0.win 1).blk t).view.emb (ix2 e (colR q)) = ix2 e (colR q) := funext fun a => Fin.ext (by
      match a with
      | ⟨0, _⟩ => show win0_1.index t (0 : Fin 2) * 1024 + 1 * e.val = e.val; rw [e10]; omega
      | ⟨1, _⟩ => show win0_1.index t (1 : Fin 2) * 1024 + 1 * (colR q).val = (colR q).val; rw [e11]; omega)
    rw [hpos]
    exact found_pair_right m c e q (colR q) rfl
  · -- the down matrix
    funext j
    show V m c main_v8 (((cfg0.win 2).blk t).view.emb j) = argW3 m c j
    have hpos : ((cfg0.win 2).blk t).view.emb j = j := funext fun a => Fin.ext (by
      match a with
      | ⟨0, _⟩ => show win0_2.index t (0 : Fin 2) * 512 + 1 * (j 0).val = (j 0).val; rw [e20]; omega
      | ⟨1, _⟩ => show win0_2.index t (1 : Fin 2) * 1024 + 1 * (j 1).val = (j 1).val; rw [e21]; omega)
    rw [hpos]
    exact congrFun (found_down m c) j
  · -- the column is the same inside the block and in the array
    show (y 1).val = win0_3.index t (1 : Fin 2) * 1024 + 1 * (y 1).val
    rw [e31]; omega

/-- An index of the array is in point t's block iff each coordinate is in the block's range on its axis. -/
theorem mem_blk (t : Fin cfg0.N) (i : S131072x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v9).slice (win0_3.rect t)).set ↔ _
  rw [View.set_slice_whole, Rect.mem_set_unit]
  exact Iff.rfl

/-- Every index of the result array is in some point's block: row r in the block of point r / 512. -/
theorem cover (i : S131072x1024.Idx) :
    ∃ t : Fin cfg0.N, (cfg0.win 3).flush t = true ∧ i ∈ ((cfg0.win 3).blk t).view.set := by
  have hi0 : (i 0).val < 131072 := (i 0).isLt
  have hi1 : (i 1).val < 1024 := (i 1).isLt
  have hN : grid0.N = 256 := N_0
  have ht : (i 0).val / 512 < grid0.N := by rw [hN]; omega
  obtain ⟨-, -, -, -, -, -, e30, e31⟩ := idx_facts ⟨(i 0).val / 512, ht⟩
  refine ⟨⟨(i 0).val / 512, ht⟩, flush0_3 _, ?_⟩
  rw [mem_blk]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e30]
    show (i 0).val / 512 * 512 ≤ (i 0).val ∧ (i 0).val < (i 0).val / 512 * 512 + 512
    omega
  | ⟨1, _⟩ =>
    show win0_3.index ⟨(i 0).val / 512, ht⟩ (1 : Fin 2) * 1024 ≤ (i 1).val
      ∧ (i 1).val < win0_3.index ⟨(i 0).val / 512, ht⟩ (1 : Fin 2) * 1024 + 1024
    rw [e31]; omega

/-- THE RESULT ARRAY after the run is the layer of the argument arrays. -/
theorem final (c : Dev nD) : (dats m 0 c).arrAt 3 cfg0.N = layer m c :=
  (dats m 0 c).arrAt_eq_of_cover 3 (layer m c) (fun t _ => flushed_eq m c t) cover

/-- The run, read: the result array ends at the layer of the launch arguments, the arguments unchanged. -/
theorem run : θ_run defs (onTc (τ := τ) (main (F := Ideal))) ⟨m, fun _ => 0, ρ⟩ fun r => ∀ c : Dev nD,
      r.2.mem ((c : Thread nD τ).loc main_v9) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefLayer.lean ====
/-
  The reference computes the gated feed-forward layer behind a root-mean-square normalisation.

  Read one operation at a time, the reference scales row i of x by (0 + Σ_c x(i,c)² / 1024)^(-1/2) — the host's
  reciprocal square root and quotient are the extended-real ones, and the initial value of its row sum is zero —,
  multiplies column c by w0(c), forms the two products with w1 and w2, joins them as g · (1 / (1 + e^(-g))) · u, which
  is g · σ(g) · u by the definition of the logistic function (the word 3F800000 is the number one), and multiplies by
  w3. A dot_general with one contracted axis is the matrix product of whole arrays. So its result is the layer
  `ffn` of its five arguments, with divisor the value of the word 44800000.
-/
import proofs.«144798_j79345225826315_2_alg».proof.Proof.Gen.ReferenceIdeal.Read
import proofs.«144798_j79345225826315_2_alg».proof.Proof.LibMatProd
import proofs.«144798_j79345225826315_2_alg».proof.Proof.LibRmsGatedFfn

open scoped BigOperators

noncomputable section

namespace Cert.ReferenceIdeal.Layer

open Cert.ReferenceIdeal Cert.ReferenceIdeal.Read Idealize.ShloMosaic Idealize.ShloMosaic.ValueIdx
open Cert.Lib.MatProd Cert.Lib.RmsGatedFfn

/-- The divisor under the root: the value of the single-precision word 44800000. -/
abbrev divisor : EReal := Ideal.ofBits .f32 0x44800000#32

/-- The word 3F800000 is the number one. -/
theorem one_f32 : Ideal.ofBits .f32 0x3F800000#32 = 1 := by
  simp [Ideal.ofBits, Ideal.ieee, -EReal.coe_mul]; norm_num

/-- The rows of x scaled and the columns weighted: the reference's tenth stage. -/
theorem norm_eq (X : (⟨S131072x1024, .f32⟩ : BufTy).Contents (Elt Ideal)) (w : (⟨S1024, .f32⟩ : BufTy).Contents (Elt Ideal)) :
    val_main_v10 (F := Ideal) X w = normRows divisor X w := by
  funext i
  obtain ⟨p, q, rfl⟩ : ∃ (p : Fin 131072) (q : Fin 1024), i = ix2 p q := ⟨i 0, i 1, eq_ix2 i⟩
  have e1 : ∀ c : Fin 1024, idx_main_v1 (idx_main_v5 (idx_main_v6 (ix2 p q))) c = ix2 p c := fun c =>
    funext fun a => Fin.ext (by match a with | ⟨0, _⟩ => rfl | ⟨1, _⟩ => rfl)
  have e2 : idx_main_v8 (idx_main_v9 (ix2 p q)) = ix1 q :=
    funext fun a => Fin.ext (by match a with | ⟨0, _⟩ => rfl)
  rw [val_main_v10_apply, val_main_v7_apply, val_main_v6_apply, val_main_v5_apply, val_main_v4_apply, val_main_v3_apply,
    val_main_v1_apply, val_main_v2_apply, val_main_cst_0_apply, val_main_cst_apply, val_main_v9_apply, val_main_v8_apply, e2]
  simp only [val_main_v0_apply, e1, Ideal.mulf_def, Ideal.hostUnary_rsqrt_def, Ideal.hostDivf_def, Ideal.ofBits_def,
    Ideal.ofBits_zero_f32, zero_add]
  rfl

/-- The gate product: the reference's eleventh stage. -/
theorem gate_eq (X : (⟨S131072x1024, .f32⟩ : BufTy).Contents (Elt Ideal)) (w : (⟨S1024, .f32⟩ : BufTy).Contents (Elt Ideal))
    (W : (⟨S1024x512, .f32⟩ : BufTy).Contents (Elt Ideal)) :
    val_main_v11 (F := Ideal) X w W = matProd (normRows divisor X w) W := by
  unfold val_main_v11
  rw [norm_eq]
  simp only [Host.dotGeneral]
  exact dotGeneral_eq_matProd _ rfl rfl rfl rfl rfl rfl _ _ _ _

/-- The up product: the reference's twelfth stage. -/
theorem up_eq (X : (⟨S131072x1024, .f32⟩ : BufTy).Contents (Elt Ideal)) (w : (⟨S1024, .f32⟩ : BufTy).Contents (Elt Ideal))
    (W : (⟨S1024x512, .f32⟩ : BufTy).Contents (Elt Ideal)) :
    val_main_v12 (F := Ideal) X w W = matProd (normRows divisor X w) W := by
  unfold val_main_v12
  rw [norm_eq]
  simp only [Host.dotGeneral]
  exact dotGeneral_eq_matProd _ rfl rfl rfl rfl rfl rfl _ _ _ _

/-- The two products joined: g · (1 / (1 + e^(-g))) · u is the gate g · σ(g) · u. -/
theorem join_eq (X : (⟨S131072x1024, .f32⟩ : BufTy).Contents (Elt Ideal)) (w : (⟨S1024, .f32⟩ : BufTy).Contents (Elt Ideal))
    (W₁ W₂ : (⟨S1024x512, .f32⟩ : BufTy).Contents (Elt Ideal)) :
    val_main_v14 (F := Ideal) X w W₁ W₂
      = gate (matProd (normRows divisor X w) W₁) (matProd (normRows divisor X w) W₂) := by
  funext i
  rw [val_main_v14_apply, val_main_v13_apply, val_main_call0_v5_apply, val_main_call0_v4_apply,
    val_main_call0_cst_0_apply, val_main_call0_v3_apply, val_main_call0_v2_apply, val_main_call0_cst_apply,
    val_main_call0_v1_apply, val_main_call0_v0_apply, gate_eq, up_eq]
  simp only [Ideal.mulf_def, Ideal.hostDivf_def, Ideal.addf_def, Ideal.hostUnary_exp_def, Ideal.hostNegf_def,
    Ideal.negf_def, Ideal.ofBits_def, one_f32]
  rfl

/-- The reference's result is the layer of its arguments. -/
theorem result_eq (X : (⟨S131072x1024, .f32⟩ : BufTy).Contents (Elt Ideal)) (w : (⟨S1024, .f32⟩ : BufTy).Contents (Elt Ideal))
    (W₁ W₂ : (⟨S1024x512, .f32⟩ : BufTy).Contents (Elt Ideal)) (W₃ : (⟨S512x1024, .f32⟩ : BufTy).Contents (Elt Ideal)) :
    val_main_v15 (F := Ideal) X w W₁ W₂ W₃ = ffn divisor X w W₁ W₂ W₃ := by
  unfold val_main_v15 ffn
  rw [join_eq]
  simp only [Host.dotGeneral]
  exact dotGeneral_eq_matProd _ rfl rfl rfl rfl rfl rfl _ _ _ _

end Cert.ReferenceIdeal.Layer

end
-- ==== Proof.lean ====
/-
  The kernel and its reference compute one function on the extended reals: a gated feed-forward layer behind a
  root-mean-square normalisation.

  With s(i) = (Σ_c x(i,c)² / 1024)^(-1/2), the reference forms a(i,c) = (x(i,c) · s(i)) · w0(c), the products
  g = a·w1 and u = a·w2, the joined values g · σ(g) · u (σ the logistic function, which the reference spells
  1 / (1 + e^(-g))), and multiplies by w3. The kernel multiplies w0 into the rows of w1 and w2 beforehand, lays the
  two weighted matrices side by side, and at each of 256 grid points pushes 512 rows of x through the same steps with
  one product in place of two, reading g and u off the two halves of its columns. Entry by entry the two differ only in
  the bracketing (x · s) · (w0 · w1) against ((x · s) · w0) · w1, and a product of extended reals may be bracketed
  either way; no sum is reordered and nothing is cancelled, so the inputs' finiteness is not used. Each row of the
  result depends on the same row of x alone, so the 256 blocks written back are the rows of the one layer, and they
  cover the result array.

  The three frames are the generated ones (the reference's is its generated run with the result dropped); the
  idealization rewrote no operation, so there is nothing to preserve; the algebraic claim sets the kernel's run
  (its result array at the layer of the launch arguments) beside the reference's run (its result, read one operation
  at a time, the same layer).
-/
import proofs.«144798_j79345225826315_2_alg».proof.Defs
import proofs.«144798_j79345225826315_2_alg».proof.Proof.Gen.Kernel
import proofs.«144798_j79345225826315_2_alg».proof.Proof.Gen.Kernel.Skeleton
import proofs.«144798_j79345225826315_2_alg».proof.Proof.Gen.Kernel.Launch
import proofs.«144798_j79345225826315_2_alg».proof.Proof.Gen.Kernel.Points
import proofs.«144798_j79345225826315_2_alg».proof.Proof.Gen.Kernel.Frame
import proofs.«144798_j79345225826315_2_alg».proof.Proof.Gen.KernelIdeal
import proofs.«144798_j79345225826315_2_alg».proof.Proof.Gen.KernelIdeal.Skeleton
import proofs.«144798_j79345225826315_2_alg».proof.Proof.Gen.KernelIdeal.Launch
import proofs.«144798_j79345225826315_2_alg».proof.Proof.Gen.KernelIdeal.Points
import proofs.«144798_j79345225826315_2_alg».proof.Proof.Gen.KernelIdeal.Frame
import proofs.«144798_j79345225826315_2_alg».proof.Proof.Gen.ReferenceIdeal
import proofs.«144798_j79345225826315_2_alg».proof.Proof.Gen.Pre_finite_inputs
import proofs.«144798_j79345225826315_2_alg».proof.Proof.Gen.KernelIdeal.Value
import proofs.«144798_j79345225826315_2_alg».proof.Proof.Gen.ReferenceIdeal.Run
import proofs.«144798_j79345225826315_2_alg».proof.Proof.Gen.ReferenceIdeal.Read
import proofs.«144798_j79345225826315_2_alg».proof.Proof.WholeArray
import proofs.«144798_j79345225826315_2_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a list of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of the launch arguments in their result arrays. -/
theorem algebraic : Cert.algebraic_KernelIdeal_ReferenceIdeal := by
  intro m ρ m' ρ' _ hagree
  refine ⟨fun c => Cert.KernelIdeal.Whole.layer m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Layer.result_eq, (hagree c).1, (hagree c).2.1,
    (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
